-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg8 : FVec F S128x256 .f32) (main_arg9 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x256 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x256 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 60
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000x1, .f32⟩
  | .hbm, ⟨50, _⟩ => ⟨S_, .f32⟩
  | .hbm, ⟨51, _⟩ => ⟨S100000x1, .f32⟩
  | .hbm, ⟨52, _⟩ => ⟨S1600000x1, .i32⟩
  | .hbm, ⟨53, _⟩ => ⟨S100000x1, .f32⟩
  | .hbm, ⟨54, _⟩ => ⟨S1x128, .f32⟩
  | .hbm, ⟨55, _⟩ => ⟨S100000x128, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S128x256_S128x128_0_0 : S128x256.Slices ![0, 0] S128x128
  slices_S128x256_S128x128_0_128 : S128x256.Slices ![0, 128] S128x128
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x256 : Shape := ⟨2, ![100000, 256]⟩
abbrev S256x128 : Shape := ⟨2, ![256, 128]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x256, .f32⟩
  | .hbm, ⟨85, _⟩ => ⟨S256x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LayerSpec.lean ====
/-
  The arithmetic of a two-layer mean-aggregating graph convolution with a linear head, entry by entry, on the
  extended reals.

  One layer takes, for every row p, the sum `agg` of the feature rows of p's in-neighbours, the number `cnt` of those
  neighbours, and p's own feature row `feat`, and returns

      max( Σ_j (agg p j / max (cnt p) 1) · Wl q j  +  Σ_j feat p j · Wr q j  +  b q , 0 )

  at column q: the mean of the neighbours through one weight matrix, the row itself through another, a bias, and
  the positive part. Row p of the result depends on row p of the three row-indexed operands only, so the same
  function describes a block of rows and the whole array (`layerAt_rows`).

  The head multiplies the two layers' outputs, laid side by side as a row of 256 entries, by a 128 × 256 weight
  matrix, adds a bias and takes the positive part. A sum over the 256 joined columns is the sum over the first 128
  plus the sum over the last 128 (`sum_halves`: addition on the extended reals is commutative and associative, which
  is all this uses), so the head is also the sum of two 128-column products against the two halves of the weight
  matrix (`headAt`), and against the two halves cut out as matrices of their own (`headCutAt`, `headCutAt_eq`).
-/
import Idealize.ShloMosaic.Lib.ValueIdx
import Idealize.ShloMosaic.Lib.ValueLayout
import Idealize.ShloMosaic.PureOps.Ideal

noncomputable section

open scoped BigOperators

namespace Cert.GraphConv

open Idealize.ShloMosaic Idealize.ShloMosaic.ValueIdx

/-- Entry (p, q) of one layer: mean of the neighbours' rows through `Wl`, the row itself through `Wr`, the bias,
    the positive part. The two words are the f32 patterns of 1 and of 0, kept as patterns. -/
def layerAt {n : ℕ} (agg : (⟨2, ![n, 128]⟩ : Shape).Idx → EReal) (cnt : (⟨2, ![n, 1]⟩ : Shape).Idx → EReal)
    (feat : (⟨2, ![n, 128]⟩ : Shape).Idx → EReal) (Wl Wr : (⟨2, ![128, 128]⟩ : Shape).Idx → EReal)
    (b : Fin 128 → EReal) (p : Fin n) (q : Fin 128) : EReal :=
  max ((∑ j : Fin 128, Ideal.div (agg (ix2 p j)) (max (cnt (ix2 p (0 : Fin 1))) (Ideal.ofBits .f32 0x3F800000#32)) * Wl (ix2 q j))
        + (∑ j : Fin 128, feat (ix2 p j) * Wr (ix2 q j)) + b q)
    (Ideal.ofBits .f32 0x00000000#32)

/-- Row p of a layer reads row p of its row-indexed operands only: operands that agree on one row (p of the one,
    p' of the other) give the same entries along it. -/
theorem layerAt_rows {n n' : ℕ} (agg : (⟨2, ![n, 128]⟩ : Shape).Idx → EReal) (cnt : (⟨2, ![n, 1]⟩ : Shape).Idx → EReal)
    (feat : (⟨2, ![n, 128]⟩ : Shape).Idx → EReal)
    (agg' : (⟨2, ![n', 128]⟩ : Shape).Idx → EReal) (cnt' : (⟨2, ![n', 1]⟩ : Shape).Idx → EReal)
    (feat' : (⟨2, ![n', 128]⟩ : Shape).Idx → EReal)
    (Wl Wr : (⟨2, ![128, 128]⟩ : Shape).Idx → EReal) (b : Fin 128 → EReal) (p : Fin n) (p' : Fin n') (q : Fin 128)
    (ha : ∀ j : Fin 128, agg (ix2 p j) = agg' (ix2 p' j)) (hc : cnt (ix2 p (0 : Fin 1)) = cnt' (ix2 p' (0 : Fin 1)))
    (hf : ∀ j : Fin 128, feat (ix2 p j) = feat' (ix2 p' j)) :
    layerAt agg cnt feat Wl Wr b p q = layerAt agg' cnt' feat' Wl Wr b p' q := by
  unfold layerAt
  rw [hc]
  simp only [ha, hf]

/-- The lower and the upper half of the 256 joined columns. -/
def lo (j : Fin 128) : Fin 256 := ⟨j.val, by have := j.isLt; omega⟩
def hi (j : Fin 128) : Fin 256 := ⟨128 + j.val, by have := j.isLt; omega⟩

/-- A sum over 256 positions is the sum over the lower 128 plus the sum over the upper 128. -/
theorem sum_halves {M : Type*} [AddCommMonoid M] (f : Fin 256 → M) :
    ∑ k : Fin 256, f k = (∑ j : Fin 128, f (lo j)) + ∑ j : Fin 128, f (hi j) :=
  Fin.sum_univ_add (a := 128) (b := 128) (f : Fin (128 + 128) → M)

/-- Entry (p, q) of the head on the two layers' outputs and the 128 × 256 weight matrix: the lower half of the
    weights meets the first layer's row, the upper half the second layer's. -/
def headAt {n : ℕ} (h1 h2 : (⟨2, ![n, 128]⟩ : Shape).Idx → EReal) (W : (⟨2, ![128, 256]⟩ : Shape).Idx → EReal)
    (b : Fin 128 → EReal) (p : Fin n) (q : Fin 128) : EReal :=
  max ((∑ j : Fin 128, h1 (ix2 p j) * W (ix2 q (lo j))) + (∑ j : Fin 128, h2 (ix2 p j) * W (ix2 q (hi j))) + b q)
    (Ideal.ofBits .f32 0x00000000#32)

/-- The same entry with the two halves of the weight matrix given as two 128 × 128 matrices. -/
def headCutAt {n : ℕ} (h1 h2 : (⟨2, ![n, 128]⟩ : Shape).Idx → EReal) (W1 W2 : (⟨2, ![128, 128]⟩ : Shape).Idx → EReal)
    (b : Fin 128 → EReal) (p : Fin n) (q : Fin 128) : EReal :=
  max ((∑ j : Fin 128, h1 (ix2 p j) * W1 (ix2 q j)) + (∑ j : Fin 128, h2 (ix2 p j) * W2 (ix2 q j)) + b q)
    (Ideal.ofBits .f32 0x00000000#32)

/-- Row p of the head reads row p of the two layers' outputs only. -/
theorem headCutAt_rows {n n' : ℕ} (h1 h2 : (⟨2, ![n, 128]⟩ : Shape).Idx → EReal) (h1' h2' : (⟨2, ![n', 128]⟩ : Shape).Idx → EReal)
    (W1 W2 : (⟨2, ![128, 128]⟩ : Shape).Idx → EReal) (b : Fin 128 → EReal) (p : Fin n) (p' : Fin n') (q : Fin 128)
    (e1 : ∀ j : Fin 128, h1 (ix2 p j) = h1' (ix2 p' j)) (e2 : ∀ j : Fin 128, h2 (ix2 p j) = h2' (ix2 p' j)) :
    headCutAt h1 h2 W1 W2 b p q = headCutAt h1' h2' W1 W2 b p' q := by
  unfold headCutAt
  simp only [e1, e2]

/-- With the two matrices the column ranges [0, 128) and [128, 256) of one 128 × 256 matrix, the two forms agree. -/
theorem headCutAt_eq {n : ℕ} (h1 h2 : (⟨2, ![n, 128]⟩ : Shape).Idx → EReal) (W : (⟨2, ![128, 256]⟩ : Shape).Idx → EReal)
    (s1 : (⟨2, ![128, 256]⟩ : Shape).Slices ![0, 0] ⟨2, ![128, 128]⟩) (s2 : (⟨2, ![128, 256]⟩ : Shape).Slices ![0, 128] ⟨2, ![128, 128]⟩)
    (b : Fin 128 → EReal) (p : Fin n) (q : Fin 128) :
    headCutAt h1 h2 (extractStridedSlice ⟨2, ![128, 128]⟩ ![0, 0] W s1) (extractStridedSlice ⟨2, ![128, 128]⟩ ![0, 128] W s2) b p q
      = headAt h1 h2 W b p q := by
  unfold headCutAt headAt
  have e1 : ∀ j : Fin 128, extractStridedSlice ⟨2, ![128, 128]⟩ ![0, 0] W s1 (ix2 q j) = W (ix2 q (lo j)) :=
    fun j => slice2_axis1_apply 0 W s1 q j (lo j) (by show j.val = 0 + j.val; omega)
  have e2 : ∀ j : Fin 128, extractStridedSlice ⟨2, ![128, 128]⟩ ![0, 128] W s2 (ix2 q j) = W (ix2 q (hi j)) :=
    fun j => slice2_axis1_apply 128 W s2 q j (hi j) rfl
  simp only [e1, e2]

end Cert.GraphConv

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelPayloads.lean ====
/-
  What each kernel body stores, read at one entry.

  The two layer kernels load a block of 5000 rows of the neighbour sums, of the in-degrees and of the features, and
  the whole of the two weight matrices and of the bias row; they divide each neighbour sum by the larger of the
  in-degree and 1, multiply the two row blocks by the transposed weight matrices, add the bias row and take the larger
  of the result and 0. Roundings to a narrower float format are the identity on the extended reals, a cast of a shape to
  itself is the identity, a product of a row block with a transposed matrix read at (p, q) is the sum over j of the
  block's row p against the matrix's ROW q, and the two broadcasts (a column along the rows' entries, a row down the
  rows) read the column at (p, 0) and the row at (0, q). So the stored block at (p, q) is the specification's layer
  entry of the loaded blocks. The head kernel is the same with two row blocks and no division.
-/
import proofs.«127703_j80607946211552_1_alg».proof.Proof.Gen.KernelIdeal.Skeleton
import proofs.«127703_j80607946211552_1_alg».proof.Proof.LayerSpec
import proofs.«127703_j80607946211552_1_alg».proof.Proof.LibMatmul
import proofs.«127703_j80607946211552_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.GraphConv

/-- A scalar constant on the extended reals is the value its pattern denotes (for any pattern). -/
theorem scalar_ofBits (b : BitVec 32) : Scalar.ofBits (F := Ideal) .f32 b = Ideal.ofBits .f32 b := rfl

/-- A row block times a transposed square matrix, at (p, q): the block's row p against the matrix's row q. -/
theorem rows_times_transposed (x : FVec Ideal S5000x128 .f32) (W : FVec Ideal S128x128 .f32) (p : Fin 5000) (q : Fin 128) :
    matmul dot_S5000x128_S128x128_S5000x128_1_0_0_1_n_n none (truncf .bf16 x bitsLt_bf16_f32)
        (transpose S128x128 [1, 0] (truncf .bf16 W bitsLt_bf16_f32) transposes_S128x128_p1_0_S128x128)
        (constant S5000x128 .f32 0x00000000#32) (ix2 p q)
      = ∑ j : Fin 128, x (ix2 p j) * W (ix2 q j) := by
  refine (matmul_zero_ix2 dot_S5000x128_S128x128_S5000x128_1_0_0_1_n_n rfl rfl rfl rfl rfl rfl none _ _ p q).trans ?_
  refine Finset.sum_congr rfl fun j _ => ?_
  rw [transpose_ix2_apply]
  rfl

/-- The first layer kernel's stored block at (p, q). -/
theorem pay0_apply (cnt : Vec Ideal S5000x1 .f32) (agg feat : Vec Ideal S5000x128 .f32) (Wl Wr : Vec Ideal S128x128 .f32)
    (b : Vec Ideal S1x128 .f32) (p : Fin 5000) (q : Fin 128) :
    k0_pay1 (F := Ideal) cnt agg feat Wl Wr b (ix2 p q)
      = layerAt agg cnt feat Wl Wr (fun q => b (ix2 (0 : Fin 1) q)) p q := by
  unfold k0_pay1 layerAt
  dsimp only
  rw [shapeCast_self, shapeCast_self, shapeCast_self, scalar_ofBits, scalar_ofBits]
  rw [maximumf_apply, addf_apply, addf_apply, broadcast_apply, rows_times_transposed, rows_times_transposed,
    broadcastTo_1b_ab_apply]
  simp only [divf_apply, broadcastTo_a1_ab_apply, maximumf_apply, broadcast_apply]

/-- The second layer kernel's stored block at (p, q): the same function (its body casts the feature block to its own
    shape once more). -/
theorem pay1_apply (cnt : Vec Ideal S5000x1 .f32) (agg feat : Vec Ideal S5000x128 .f32) (Wl Wr : Vec Ideal S128x128 .f32)
    (b : Vec Ideal S1x128 .f32) (p : Fin 5000) (q : Fin 128) :
    k1_pay1 (F := Ideal) cnt agg feat Wl Wr b (ix2 p q)
      = layerAt agg cnt feat Wl Wr (fun q => b (ix2 (0 : Fin 1) q)) p q := by
  unfold k1_pay1 layerAt
  dsimp only
  rw [shapeCast_self, shapeCast_self, shapeCast_self, shapeCast_self, scalar_ofBits, scalar_ofBits]
  rw [maximumf_apply, addf_apply, addf_apply, broadcast_apply, rows_times_transposed, rows_times_transposed,
    broadcastTo_1b_ab_apply]
  simp only [divf_apply, broadcastTo_a1_ab_apply, maximumf_apply, broadcast_apply]

/-- The head kernel's stored block at (p, q). -/
theorem pay2_apply (h1 h2 : Vec Ideal S5000x128 .f32) (W1 W2 : Vec Ideal S128x128 .f32)
    (b : Vec Ideal S1x128 .f32) (p : Fin 5000) (q : Fin 128) :
    k2_pay1 (F := Ideal) h1 h2 W1 W2 b (ix2 p q)
      = headCutAt h1 h2 W1 W2 (fun q => b (ix2 (0 : Fin 1) q)) p q := by
  unfold k2_pay1 headCutAt
  dsimp only
  rw [shapeCast_self, shapeCast_self, shapeCast_self, shapeCast_self, shapeCast_self, scalar_ofBits]
  rw [maximumf_apply, addf_apply, addf_apply, broadcast_apply, rows_times_transposed, rows_times_transposed,
    broadcastTo_1b_ab_apply]

end Cert.KernelIdeal.Pay

end
-- ==== Proof.KernelBlocks0.lean ====
/-
  Region 0 (the first layer kernel), from blocks to the array.

  The grid has 20 points; point t works on rows 5000 t … 5000 t + 4999: the three row-indexed operands (neighbour
  sums, in-degrees, features) and the output are cut into blocks of 5000 rows at block index (t, 0), while the two weight
  matrices and the bias row are taken whole at block index (0, 0). What point t writes back is therefore the layer's
  entries of rows 5000 t + p of the arrays as the region finds them, and since every row lies in exactly one such
  block the output array after the run is the layer of those arrays, whatever they are.
-/
import proofs.«127703_j80607946211552_1_alg».proof.Proof.Gen.KernelIdeal.Frame
import proofs.«127703_j80607946211552_1_alg».proof.Proof.KernelPayloads
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx
open Cert.GraphConv Cert.KernelIdeal.Pay Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The block indices over the grid: the row-indexed windows and the output sit at block (t, 0), the others at (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 3 is its whole array at every point. -/
theorem whole3 (c : Dev nD) (t : Fin cfg0.N) : iblk0 V c 3 t = V c main_arg2 := by
  obtain ⟨e00, e01, e10, e11, e20, e21, e30, e31, e40, e41, e50, e51, e60, e61⟩ := block_index t
  funext z
  show V c main_arg2 (((cfg0.win 3).blk t).view.emb z) = V c main_arg2 z
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

/-- Window 4 is its whole array at every point. -/
theorem whole4 (c : Dev nD) (t : Fin cfg0.N) : iblk0 V c 4 t = V c main_arg3 := by
  obtain ⟨e00, e01, e10, e11, e20, e21, e30, e31, e40, e41, e50, e51, e60, e61⟩ := block_index t
  funext z
  show V c main_arg3 (((cfg0.win 4).blk t).view.emb z) = V c main_arg3 z
  refine congrArg _ (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

/-- Window 5 is its whole array at every point. -/
theorem whole5 (c : Dev nD) (t : Fin cfg0.N) : iblk0 V c 5 t = V c main_v18 := by
  obtain ⟨e00, e01, e10, e11, e20, e21, e30, e31, e40, e41, e50, e51, e60, e61⟩ := block_index t
  funext z
  show V c main_v18 (((cfg0.win 5).blk t).view.emb z) = V c main_v18 z
  refine congrArg _ (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

/-- Row p of window 0's block at point t is row 5000 t + p of its array. -/
theorem row0 (c : Dev nD) (t : Fin cfg0.N) (p : Fin 5000) (P : Fin 100000) (hP : P.val = 5000 * t.val + p.val) (j : Fin 128) :
    iblk0 V c 0 t (ix2 p j) = V c main_v13 (ix2 P j) := by
  obtain ⟨e00, e01, e10, e11, e20, e21, e30, e31, e40, e41, e50, e51, e60, e61⟩ := block_index t
  show V c main_v13 (((cfg0.win 0).blk t).view.emb (ix2 p j)) = V c main_v13 (ix2 P j)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * j.val = j.val; omega

/-- Row p of window 1's block at point t is row 5000 t + p of its array. -/
theorem row1 (c : Dev nD) (t : Fin cfg0.N) (p : Fin 5000) (P : Fin 100000) (hP : P.val = 5000 * t.val + p.val) :
    iblk0 V c 1 t (ix2 p (0 : Fin 1)) = V c main_v17 (ix2 P (0 : Fin 1)) := by
  obtain ⟨e00, e01, e10, e11, e20, e21, e30, e31, e40, e41, e50, e51, e60, e61⟩ := block_index t
  show V c main_v17 (((cfg0.win 1).blk t).view.emb (ix2 p (0 : Fin 1))) = V c main_v17 (ix2 P (0 : Fin 1))
  refine congrArg _ (funext fun a => Fin.ext ?_)
  match a with
  | ⟨0, _⟩ => show win0_1.index t (0 : Fin 2) * 5000 + 1 * p.val = P.val; omega
  | ⟨1, _⟩ => show win0_1.index t (1 : Fin 2) * 1 + 1 * 0 = 0; omega

/-- Row p of window 2's block at point t is row 5000 t + p of its array. -/
theorem row2 (c : Dev nD) (t : Fin cfg0.N) (p : Fin 5000) (P : Fin 100000) (hP : P.val = 5000 * t.val + p.val) (j : Fin 128) :
    iblk0 V c 2 t (ix2 p j) = V c main_arg0 (ix2 P j) := by
  obtain ⟨e00, e01, e10, e11, e20, e21, e30, e31, e40, e41, e50, e51, e60, e61⟩ := block_index t
  show V c main_arg0 (((cfg0.win 2).blk t).view.emb (ix2 p j)) = V c main_arg0 (ix2 P j)
  refine congrArg _ (funext fun a => Fin.ext ?_)
  match a with
  | ⟨0, _⟩ => show win0_2.index t (0 : Fin 2) * 5000 + 1 * p.val = P.val; omega
  | ⟨1, _⟩ => show win0_2.index t (1 : Fin 2) * 128 + 1 * j.val = j.val; omega

/-- The region's output array as one function of the arrays the region finds. -/
abbrev whole (c : Dev nD) : Buf (Elt Ideal) ((c : Thread nD τ).loc main_v19) :=
  fun i => layerAt (V c main_v13) (V c main_v17) (V c main_arg0) (V c main_arg2) (V c main_arg3)
    (fun q => V c main_v18 (ix2 (0 : Fin 1) q)) (i 0) (i 1)

/-- What point t writes back is block t of that function. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero zeros]
  simp only [View.ld_unit_zero (S := S5000x1) zeros, View.ld_unit_zero (S := S5000x128) zeros,
    View.ld_unit_zero (S := S128x128) zeros, View.ld_unit_zero (S := S1x128) zeros]
  funext y
  obtain ⟨p, q, rfl⟩ : ∃ (p : Fin 5000) (q : Fin 128), y = ix2 p q := ⟨y 0, y 1, eq_ix2 y⟩
  obtain ⟨e00, e01, e10, e11, e20, e21, e30, e31, e40, e41, e50, e51, e60, e61⟩ := block_index t
  show k0_pay1 (F := Ideal) (iblk0 V c 1 t) (iblk0 V c 0 t) (iblk0 V c 2 t) (iblk0 V c 3 t) (iblk0 V c 4 t) (iblk0 V c 5 t) (ix2 p q)
      = whole V c (((cfg0.win 6).blk t).view.emb (ix2 p q))
  refine (pay0_apply _ _ _ _ _ _ p q).trans ?_
  rw [whole3 V c t, whole4 V c t, whole5 V c t]
  have key : ∀ (P : Fin 100000) (Q : Fin 128), P.val = 5000 * t.val + p.val → Q = q →
      layerAt (iblk0 V c 0 t) (iblk0 V c 1 t) (iblk0 V c 2 t) (V c main_arg2) (V c main_arg3) (fun q => V c main_v18 (ix2 (0 : Fin 1) q)) p q
        = layerAt (V c main_v13) (V c main_v17) (V c main_arg0) (V c main_arg2) (V c main_arg3) (fun q => V c main_v18 (ix2 (0 : Fin 1) q)) P Q := by
    intro P Q hP hQ
    rw [hQ]
    exact layerAt_rows (iblk0 V c 0 t) (iblk0 V c 1 t) (iblk0 V c 2 t) (V c main_v13) (V c main_v17) (V c main_arg0) (V c main_arg2) (V c main_arg3)
      (fun q => V c main_v18 (ix2 (0 : Fin 1) q)) p P q (fun j => row0 V c t p P hP j) (row1 V c t p P hP) (fun j => row2 V c t p P hP j)
  exact key _ _ (by show win0_6.index t (0 : Fin 2) * 5000 + 1 * p.val = 5000 * t.val + p.val; omega)
    (Fin.ext (by show win0_6.index t (1 : Fin 2) * 128 + 1 * q.val = q.val; omega))

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Every row lies in the block of the point numbered by the row divided by 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  have ht : (i 0).val / 5000 < grid0.N := by omega
  obtain ⟨e00, e01, e10, e11, e20, e21, e30, e31, e40, e41, e50, e51, e60, e61⟩ := block_index (⟨(i 0).val / 5000, ht⟩ : Fin cfg0.N)
  have f0 : win0_6.index (⟨(i 0).val / 5000, ht⟩ : Fin cfg0.N) (0 : Fin 2) = (i 0).val / 5000 := e60
  refine ⟨⟨(i 0).val / 5000, ht⟩, flush0_6 _, ?_⟩
  rw [mem_blk]
  intro a
  match a with
  | ⟨0, _⟩ => show win0_6.index _ (0 : Fin 2) * 5000 ≤ (i 0).val ∧ (i 0).val < win0_6.index _ (0 : Fin 2) * 5000 + 5000; omega
  | ⟨1, _⟩ => show win0_6.index _ (1 : Fin 2) * 128 ≤ (i 1).val ∧ (i 1).val < win0_6.index _ (1 : Fin 2) * 128 + 128; omega

/-- The region's output array after its run. -/
theorem final (c : Dev nD) : (dat0 V c).arrAt 6 cfg0.N = fun i => layerAt (V c main_v13) (V c main_v17) (V c main_arg0) (V c main_arg2) (V c main_arg3)
    (fun q => V c main_v18 (ix2 (0 : Fin 1) q)) (i 0) (i 1) :=
  (dat0 V c).arrAt_eq_of_cover 6 (whole V c) (fun t _ => flushed_eq V c t) cover

end Cert.KernelIdeal.Blocks0

end
-- ==== Proof.KernelBlocks1.lean ====
/-
  Region 1 (the second layer kernel), from blocks to the array.

  The grid has 20 points; point t works on rows 5000 t … 5000 t + 4999: the three row-indexed operands (neighbour
  sums, in-degrees, the first layer's output) and the output are cut into blocks of 5000 rows at block index (t, 0), while the two weight
  matrices and the bias row are taken whole at block index (0, 0). What point t writes back is therefore the layer's
  entries of rows 5000 t + p of the arrays as the region finds them, and since every row lies in exactly one such
  block the output array after the run is the layer of those arrays, whatever they are.
-/
import proofs.«127703_j80607946211552_1_alg».proof.Proof.Gen.KernelIdeal.Frame
import proofs.«127703_j80607946211552_1_alg».proof.Proof.KernelPayloads
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx
open Cert.GraphConv Cert.KernelIdeal.Pay Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The block indices over the grid: the row-indexed windows and the output sit at block (t, 0), the others at (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 3 is its whole array at every point. -/
theorem whole3 (c : Dev nD) (t : Fin cfg1.N) : iblk1 V c 3 t = V c main_arg5 := by
  obtain ⟨e00, e01, e10, e11, e20, e21, e30, e31, e40, e41, e50, e51, e60, e61⟩ := block_index t
  funext z
  show V c main_arg5 (((cfg1.win 3).blk t).view.emb z) = V c main_arg5 z
  refine congrArg _ (funext fun a => Fin.ext ?_)
  match a with
  | ⟨0, _⟩ => show win1_3.index t (0 : Fin 2) * 128 + 1 * (z 0).val = (z 0).val; omega
  | ⟨1, _⟩ => show win1_3.index t (1 : Fin 2) * 128 + 1 * (z 1).val = (z 1).val; omega

/-- Window 4 is its whole array at every point. -/
theorem whole4 (c : Dev nD) (t : Fin cfg1.N) : iblk1 V c 4 t = V c main_arg6 := by
  obtain ⟨e00, e01, e10, e11, e20, e21, e30, e31, e40, e41, e50, e51, e60, e61⟩ := block_index t
  funext z
  show V c main_arg6 (((cfg1.win 4).blk t).view.emb z) = V c main_arg6 z
  refine congrArg _ (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

/-- Window 5 is its whole array at every point. -/
theorem whole5 (c : Dev nD) (t : Fin cfg1.N) : iblk1 V c 5 t = V c main_v34 := by
  obtain ⟨e00, e01, e10, e11, e20, e21, e30, e31, e40, e41, e50, e51, e60, e61⟩ := block_index t
  funext z
  show V c main_v34 (((cfg1.win 5).blk t).view.emb z) = V c main_v34 z
  refine congrArg _ (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

/-- Row p of window 0's block at point t is row 5000 t + p of its array. -/
theorem row0 (c : Dev nD) (t : Fin cfg1.N) (p : Fin 5000) (P : Fin 100000) (hP : P.val = 5000 * t.val + p.val) (j : Fin 128) :
    iblk1 V c 0 t (ix2 p j) = V c main_v29 (ix2 P j) := by
  obtain ⟨e00, e01, e10, e11, e20, e21, e30, e31, e40, e41, e50, e51, e60, e61⟩ := block_index t
  show V c main_v29 (((cfg1.win 0).blk t).view.emb (ix2 p j)) = V c main_v29 (ix2 P j)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * j.val = j.val; omega

/-- Row p of window 1's block at point t is row 5000 t + p of its array. -/
theorem row1 (c : Dev nD) (t : Fin cfg1.N) (p : Fin 5000) (P : Fin 100000) (hP : P.val = 5000 * t.val + p.val) :
    iblk1 V c 1 t (ix2 p (0 : Fin 1)) = V c main_v33 (ix2 P (0 : Fin 1)) := by
  obtain ⟨e00, e01, e10, e11, e20, e21, e30, e31, e40, e41, e50, e51, e60, e61⟩ := block_index t
  show V c main_v33 (((cfg1.win 1).blk t).view.emb (ix2 p (0 : Fin 1))) = V c main_v33 (ix2 P (0 : Fin 1))
  refine congrArg _ (funext fun a => Fin.ext ?_)
  match a with
  | ⟨0, _⟩ => show win1_1.index t (0 : Fin 2) * 5000 + 1 * p.val = P.val; omega
  | ⟨1, _⟩ => show win1_1.index t (1 : Fin 2) * 1 + 1 * 0 = 0; omega

/-- Row p of window 2's block at point t is row 5000 t + p of its array. -/
theorem row2 (c : Dev nD) (t : Fin cfg1.N) (p : Fin 5000) (P : Fin 100000) (hP : P.val = 5000 * t.val + p.val) (j : Fin 128) :
    iblk1 V c 2 t (ix2 p j) = V c main_v19 (ix2 P j) := by
  obtain ⟨e00, e01, e10, e11, e20, e21, e30, e31, e40, e41, e50, e51, e60, e61⟩ := block_index t
  show V c main_v19 (((cfg1.win 2).blk t).view.emb (ix2 p j)) = V c main_v19 (ix2 P j)
  refine congrArg _ (funext fun a => Fin.ext ?_)
  match a with
  | ⟨0, _⟩ => show win1_2.index t (0 : Fin 2) * 5000 + 1 * p.val = P.val; omega
  | ⟨1, _⟩ => show win1_2.index t (1 : Fin 2) * 128 + 1 * j.val = j.val; omega

/-- The region's output array as one function of the arrays the region finds. -/
abbrev whole (c : Dev nD) : Buf (Elt Ideal) ((c : Thread nD τ).loc main_v35) :=
  fun i => layerAt (V c main_v29) (V c main_v33) (V c main_v19) (V c main_arg5) (V c main_arg6)
    (fun q => V c main_v34 (ix2 (0 : Fin 1) q)) (i 0) (i 1)

/-- What point t writes back is block t of that function. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero zeros]
  simp only [View.ld_unit_zero (S := S5000x1) zeros, View.ld_unit_zero (S := S5000x128) zeros,
    View.ld_unit_zero (S := S128x128) zeros, View.ld_unit_zero (S := S1x128) zeros]
  funext y
  obtain ⟨p, q, rfl⟩ : ∃ (p : Fin 5000) (q : Fin 128), y = ix2 p q := ⟨y 0, y 1, eq_ix2 y⟩
  obtain ⟨e00, e01, e10, e11, e20, e21, e30, e31, e40, e41, e50, e51, e60, e61⟩ := block_index t
  show k1_pay1 (F := Ideal) (iblk1 V c 1 t) (iblk1 V c 0 t) (iblk1 V c 2 t) (iblk1 V c 3 t) (iblk1 V c 4 t) (iblk1 V c 5 t) (ix2 p q)
      = whole V c (((cfg1.win 6).blk t).view.emb (ix2 p q))
  refine (pay1_apply _ _ _ _ _ _ p q).trans ?_
  rw [whole3 V c t, whole4 V c t, whole5 V c t]
  have key : ∀ (P : Fin 100000) (Q : Fin 128), P.val = 5000 * t.val + p.val → Q = q →
      layerAt (iblk1 V c 0 t) (iblk1 V c 1 t) (iblk1 V c 2 t) (V c main_arg5) (V c main_arg6) (fun q => V c main_v34 (ix2 (0 : Fin 1) q)) p q
        = layerAt (V c main_v29) (V c main_v33) (V c main_v19) (V c main_arg5) (V c main_arg6) (fun q => V c main_v34 (ix2 (0 : Fin 1) q)) P Q := by
    intro P Q hP hQ
    rw [hQ]
    exact layerAt_rows (iblk1 V c 0 t) (iblk1 V c 1 t) (iblk1 V c 2 t) (V c main_v29) (V c main_v33) (V c main_v19) (V c main_arg5) (V c main_arg6)
      (fun q => V c main_v34 (ix2 (0 : Fin 1) q)) p P q (fun j => row0 V c t p P hP j) (row1 V c t p P hP) (fun j => row2 V c t p P hP j)
  exact key _ _ (by show win1_6.index t (0 : Fin 2) * 5000 + 1 * p.val = 5000 * t.val + p.val; omega)
    (Fin.ext (by show win1_6.index t (1 : Fin 2) * 128 + 1 * q.val = q.val; omega))

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- Every row lies in the block of the point numbered by the row divided by 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have ht : (i 0).val / 5000 < grid1.N := by omega
  obtain ⟨e00, e01, e10, e11, e20, e21, e30, e31, e40, e41, e50, e51, e60, e61⟩ := block_index (⟨(i 0).val / 5000, ht⟩ : Fin cfg1.N)
  have f0 : win1_6.index (⟨(i 0).val / 5000, ht⟩ : Fin cfg1.N) (0 : Fin 2) = (i 0).val / 5000 := e60
  refine ⟨⟨(i 0).val / 5000, ht⟩, flush1_6 _, ?_⟩
  rw [mem_blk]
  intro a
  match a with
  | ⟨0, _⟩ => show win1_6.index _ (0 : Fin 2) * 5000 ≤ (i 0).val ∧ (i 0).val < win1_6.index _ (0 : Fin 2) * 5000 + 5000; omega
  | ⟨1, _⟩ => show win1_6.index _ (1 : Fin 2) * 128 ≤ (i 1).val ∧ (i 1).val < win1_6.index _ (1 : Fin 2) * 128 + 128; omega

/-- The region's output array after its run. -/
theorem final (c : Dev nD) : (dat1 V c).arrAt 6 cfg1.N = fun i => layerAt (V c main_v29) (V c main_v33) (V c main_v19) (V c main_arg5) (V c main_arg6)
    (fun q => V c main_v34 (ix2 (0 : Fin 1) q)) (i 0) (i 1) :=
  (dat1 V c).arrAt_eq_of_cover 6 (whole V c) (fun t _ => flushed_eq V c t) cover

end Cert.KernelIdeal.Blocks1

end
-- ==== Proof.KernelBlocks2.lean ====
/-
  Region 2 (the head kernel), from blocks to the array.

  The grid has 20 points; point t works on rows 5000 t … 5000 t + 4999: the two layers' outputs and the result are cut
  into blocks of 5000 rows at block index (t, 0), while the two cut weight matrices and the bias row are taken whole at
  block index (0, 0). What point t writes back is therefore the head's entries of rows 5000 t + p of the arrays as the
  region finds them, and since every row lies in exactly one such block the result array after the run is the head of
  those arrays, whatever they are.
-/
import proofs.«127703_j80607946211552_1_alg».proof.Proof.Gen.KernelIdeal.Frame
import proofs.«127703_j80607946211552_1_alg».proof.Proof.KernelPayloads
import Idealize.ShloMosaic.Lib.Pipeline.Value

set_option maxRecDepth 16384

noncomputable section

open scoped BigOperators

namespace Cert.KernelIdeal.Blocks2

open Cert.KernelIdeal Cert.KernelIdeal.Gen Idealize.ShloMosaic Idealize.ShloMosaic.TcCoe Idealize.ShloMosaic.ValueIdx
open Cert.GraphConv Cert.KernelIdeal.Pay Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The block indices over the grid: the two row-indexed windows and the output sit at block (t, 0), the others at (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 2 (the lower half of the weights, cut out) is its whole array at every point. -/
theorem whole2 (c : Dev nD) (t : Fin cfg2.N) : iblk2 V c 2 t = V c main_v36 := by
  obtain ⟨e00, e01, e10, e11, e20, e21, e30, e31, e40, e41, e50, e51⟩ := block_index t
  funext z
  show V c main_v36 (((cfg2.win 2).blk t).view.emb z) = V c main_v36 z
  refine congrArg _ (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

/-- Window 3 (the upper half of the weights, cut out) is its whole array at every point. -/
theorem whole3 (c : Dev nD) (t : Fin cfg2.N) : iblk2 V c 3 t = V c main_v37 := by
  obtain ⟨e00, e01, e10, e11, e20, e21, e30, e31, e40, e41, e50, e51⟩ := block_index t
  funext z
  show V c main_v37 (((cfg2.win 3).blk t).view.emb z) = V c main_v37 z
  refine congrArg _ (funext fun a => Fin.ext ?_)
  match a with
  | ⟨0, _⟩ => show win2_3.index t (0 : Fin 2) * 128 + 1 * (z 0).val = (z 0).val; omega
  | ⟨1, _⟩ => show win2_3.index t (1 : Fin 2) * 128 + 1 * (z 1).val = (z 1).val; omega

/-- Window 4 (the bias row) is its whole array at every point. -/
theorem whole4 (c : Dev nD) (t : Fin cfg2.N) : iblk2 V c 4 t = V c main_v38 := by
  obtain ⟨e00, e01, e10, e11, e20, e21, e30, e31, e40, e41, e50, e51⟩ := block_index t
  funext z
  show V c main_v38 (((cfg2.win 4).blk t).view.emb z) = V c main_v38 z
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- Row p of the first layer's block at point t is row 5000 t + p of the first layer's output. -/
theorem row0 (c : Dev nD) (t : Fin cfg2.N) (p : Fin 5000) (P : Fin 100000) (hP : P.val = 5000 * t.val + p.val) (j : Fin 128) :
    iblk2 V c 0 t (ix2 p j) = V c main_v19 (ix2 P j) := by
  obtain ⟨e00, e01, e10, e11, e20, e21, e30, e31, e40, e41, e50, e51⟩ := block_index t
  show V c main_v19 (((cfg2.win 0).blk t).view.emb (ix2 p j)) = V c main_v19 (ix2 P j)
  refine congrArg _ (funext fun a => Fin.ext ?_)
  match a with
  | ⟨0, _⟩ => show win2_0.index t (0 : Fin 2) * 5000 + 1 * p.val = P.val; omega
  | ⟨1, _⟩ => show win2_0.index t (1 : Fin 2) * 128 + 1 * j.val = j.val; omega

/-- Row p of the second layer's block at point t is row 5000 t + p of the second layer's output. -/
theorem row1 (c : Dev nD) (t : Fin cfg2.N) (p : Fin 5000) (P : Fin 100000) (hP : P.val = 5000 * t.val + p.val) (j : Fin 128) :
    iblk2 V c 1 t (ix2 p j) = V c main_v35 (ix2 P j) := by
  obtain ⟨e00, e01, e10, e11, e20, e21, e30, e31, e40, e41, e50, e51⟩ := block_index t
  show V c main_v35 (((cfg2.win 1).blk t).view.emb (ix2 p j)) = V c main_v35 (ix2 P j)
  refine congrArg _ (funext fun a => Fin.ext ?_)
  match a with
  | ⟨0, _⟩ => show win2_1.index t (0 : Fin 2) * 5000 + 1 * p.val = P.val; omega
  | ⟨1, _⟩ => show win2_1.index t (1 : Fin 2) * 128 + 1 * j.val = j.val; omega

/-- The region's result array as one function of the arrays the region finds. -/
abbrev whole (c : Dev nD) : Buf (Elt Ideal) ((c : Thread nD τ).loc main_v39) :=
  fun i => headCutAt (V c main_v19) (V c main_v35) (V c main_v36) (V c main_v37)
    (fun q => V c main_v38 (ix2 (0 : Fin 1) q)) (i 0) (i 1)

/-- What point t writes back is block t of that function. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zeros]
  simp only [View.ld_unit_zero (S := S5000x128) zeros, View.ld_unit_zero (S := S128x128) zeros,
    View.ld_unit_zero (S := S1x128) zeros]
  funext y
  obtain ⟨p, q, rfl⟩ : ∃ (p : Fin 5000) (q : Fin 128), y = ix2 p q := ⟨y 0, y 1, eq_ix2 y⟩
  obtain ⟨e00, e01, e10, e11, e20, e21, e30, e31, e40, e41, e50, e51⟩ := block_index t
  show k2_pay1 (F := Ideal) (iblk2 V c 0 t) (iblk2 V c 1 t) (iblk2 V c 2 t) (iblk2 V c 3 t) (iblk2 V c 4 t) (ix2 p q)
      = whole V c (((cfg2.win 5).blk t).view.emb (ix2 p q))
  refine (pay2_apply _ _ _ _ _ p q).trans ?_
  rw [whole2 V c t, whole3 V c t, whole4 V c t]
  have key : ∀ (P : Fin 100000) (Q : Fin 128), P.val = 5000 * t.val + p.val → Q = q →
      headCutAt (iblk2 V c 0 t) (iblk2 V c 1 t) (V c main_v36) (V c main_v37) (fun q => V c main_v38 (ix2 (0 : Fin 1) q)) p q
        = headCutAt (V c main_v19) (V c main_v35) (V c main_v36) (V c main_v37) (fun q => V c main_v38 (ix2 (0 : Fin 1) q)) P Q := by
    intro P Q hP hQ
    rw [hQ]
    exact headCutAt_rows (iblk2 V c 0 t) (iblk2 V c 1 t) (V c main_v19) (V c main_v35) (V c main_v36) (V c main_v37)
      (fun q => V c main_v38 (ix2 (0 : Fin 1) q)) p P q (fun j => row0 V c t p P hP j) (fun j => row1 V c t p P hP j)
  exact key _ _ (by show win2_5.index t (0 : Fin 2) * 5000 + 1 * p.val = 5000 * t.val + p.val; omega)
    (Fin.ext (by show win2_5.index t (1 : Fin 2) * 128 + 1 * q.val = q.val; omega))

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v39).slice (win2_5.rect t)).set ↔ _
  rw [View.set_slice_whole, Rect.mem_set_unit]
  exact Iff.rfl

/-- Every row lies in the block of the point numbered by the row divided by 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < grid2.N := by omega
  obtain ⟨e00, e01, e10, e11, e20, e21, e30, e31, e40, e41, e50, e51⟩ := block_index (⟨(i 0).val / 5000, ht⟩ : Fin cfg2.N)
  have f0 : win2_5.index (⟨(i 0).val / 5000, ht⟩ : Fin cfg2.N) (0 : Fin 2) = (i 0).val / 5000 := e50
  refine ⟨⟨(i 0).val / 5000, ht⟩, flush2_5 _, ?_⟩
  rw [mem_blk]
  intro a
  match a with
  | ⟨0, _⟩ => show win2_5.index _ (0 : Fin 2) * 5000 ≤ (i 0).val ∧ (i 0).val < win2_5.index _ (0 : Fin 2) * 5000 + 5000; omega
  | ⟨1, _⟩ => show win2_5.index _ (1 : Fin 2) * 128 ≤ (i 1).val ∧ (i 1).val < win2_5.index _ (1 : Fin 2) * 128 + 128; omega

/-- The region's result array after its run. -/
theorem final (c : Dev nD) : (dat2 V c).arrAt 5 cfg2.N = fun i => headCutAt (V c main_v19) (V c main_v35) (V c main_v36) (V c main_v37)
    (fun q => V c main_v38 (ix2 (0 : Fin 1) q)) (i 0) (i 1) :=
  (dat2 V c).arrAt_eq_of_cover 5 (whole V c) (fun t _ => flushed_eq V c t) cover

end Cert.KernelIdeal.Blocks2

end
-- ==== Proof.KernelRun.lean ====
/-
  The kernel program's run, with the result array named.

  From any launch memory with zero counters, every weakly fair execution of the program on the TensorCores
  terminates without fault, and in every final state the result array main_v39 holds the contents W6 — the last
  of the boundary contents folded through the program's three host stretches and three kernel regions — while
  each of the ten argument arrays holds what it held at launch.
-/
import proofs.«127703_j80607946211552_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has the result array at the last boundary's contents and the ten arguments as launched:
    the thread state at the end holds every unscoped buffer at W6, read against the final state. -/
theorem run_out : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.KernelSpec.lean ====
/-
  What the kernel program computes, as one function of its ten argument arrays.

  The irregular part — for every edge (s, d) add the feature row of s into row d, and count the edges into d — is
  done by the host with a gather and two accumulating scatters; both programs do it with the same operations, so it is
  kept here as two opaque functions, `aggOf` (the summed neighbour rows) and `cntOf` (the in-degrees), never opened.
  The dense part is the specification's `layerAt` (twice, the second layer fed by the first) and `headAt`.
-/
import proofs.«127703_j80607946211552_1_alg».proof.Proof.Gen.KernelIdeal
import proofs.«127703_j80607946211552_1_alg».proof.Proof.LayerSpec

noncomputable section

namespace Cert.KernelIdeal.Spec

open Cert.KernelIdeal Cert.KernelIdeal.Gen Idealize.ShloMosaic Idealize.ShloMosaic.ValueIdx Cert.GraphConv

/-- Row 0 of the edge list: every edge's source row, as given. -/
def srcRaw (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- Row 1 of the edge list: every edge's destination row. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The source rows with a negative number counted back from the last row (s + 100000 when s < 0). -/
def srcOf (ei : (⟨S2x1600000, .i32⟩ : BufTy).Contents (Elt Ideal)) : (⟨S1600000, .i32⟩ : BufTy).Contents (Elt Ideal) :=
  select (cmpi .slt (srcRaw ei) (broadcastInDim S1600000 ![] bcast_S_S1600000 (constantI S_ 32 0#32)))
    (addi (srcRaw ei) (broadcastInDim S1600000 ![] bcast_S_S1600000 (constantI S_ 32 100000#32))) (srcRaw ei)

/-- For every row d, the sum of the feature rows of the sources of the edges into d. -/
def aggOf (feat : (⟨S100000x128, .f32⟩ : BufTy).Contents (Elt Ideal)) (ei : (⟨S2x1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstOf ei))
    (Host.gather gather_S100000x128_S1600000x1_S1600000x128_1_0_n_n_0_1_1128 feat
      (broadcastInDim S1600000x1 ![0] bcast_S1600000_S1600000x1_0 (srcOf ei)))

/-- For every row d, the number of edges into d. -/
def cntOf (ei : (⟨S2x1600000, .i32⟩ : BufTy).Contents (Elt Ideal)) : (⟨S100000x1, .f32⟩ : BufTy).Contents (Elt Ideal) :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 (dstOf ei))
    (broadcastInDim S1600000x1 ![] bcast_S_S1600000x1 (constant (F := Ideal) S_ .f32 0x3F800000#32))

/-- A bias vector as a function of the column. -/
def biasOf (b : (⟨S128, .f32⟩ : BufTy).Contents (Elt Ideal)) : Fin 128 → EReal := fun q => b (ix1 q)

/-- The first layer's output. -/
def h1Of (x : (⟨S100000x128, .f32⟩ : BufTy).Contents (Elt Ideal)) (ei : (⟨S2x1600000, .i32⟩ : BufTy).Contents (Elt Ideal))
    (Wl Wr : (⟨S128x128, .f32⟩ : BufTy).Contents (Elt Ideal)) (b : (⟨S128, .f32⟩ : BufTy).Contents (Elt Ideal)) :
    (⟨S100000x128, .f32⟩ : BufTy).Contents (Elt Ideal) :=
  fun i => layerAt (aggOf x ei) (cntOf ei) x Wl Wr (biasOf b) (i 0) (i 1)

/-- The kernel program's result: the head on the two layers' outputs, the second layer fed by the first. -/
def outOf (x : (⟨S100000x128, .f32⟩ : BufTy).Contents (Elt Ideal)) (ei : (⟨S2x1600000, .i32⟩ : BufTy).Contents (Elt Ideal))
    (Wl1 Wr1 : (⟨S128x128, .f32⟩ : BufTy).Contents (Elt Ideal)) (b1 : (⟨S128, .f32⟩ : BufTy).Contents (Elt Ideal))
    (Wl2 Wr2 : (⟨S128x128, .f32⟩ : BufTy).Contents (Elt Ideal)) (b2 : (⟨S128, .f32⟩ : BufTy).Contents (Elt Ideal))
    (Wlin : (⟨S128x256, .f32⟩ : BufTy).Contents (Elt Ideal)) (blin : (⟨S128, .f32⟩ : BufTy).Contents (Elt Ideal)) :
    (⟨S100000x128, .f32⟩ : BufTy).Contents (Elt Ideal) :=
  fun i => headAt (h1Of x ei Wl1 Wr1 b1) (h1Of (h1Of x ei Wl1 Wr1 b1) ei Wl2 Wr2 b2) Wlin (biasOf blin) (i 0) (i 1)

end Cert.KernelIdeal.Spec

end
-- ==== Proof.KernelHost0.lean ====
/-
  The first host stretch of the kernel program, read at the buffers the later segments use.

  From the launch contents the stretch cuts the edge list into its source row and its destination row, sums the
  feature rows of the sources into the destinations' rows, counts the edges into each row, and lays the first bias
  out as a single row. Each of those buffers is read here as a function of the argument arrays: the summed rows and
  the counts as the specification's two opaque functions of the features and the edge list, the two rows of the edge
  list as the specification names them, the bias as the argument reshaped. The argument arrays that the stretch does
  not write hold after it what they held at launch.
-/
import proofs.«127703_j80607946211552_1_alg».proof.Proof.Gen.KernelIdeal.Frame
import proofs.«127703_j80607946211552_1_alg».proof.Proof.KernelSpec
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Cert.GraphConv Idealize.ShloMosaic.ValueIdx

/-- A buffer that no operation of a host stretch writes holds after the stretch what it held before. -/
local macro "keeps_through " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## What the stretch computes -/

/-- The summed neighbour rows that the first layer reads. -/
theorem V1_v13 : (V1 m ρ c main_v13 : (⟨S100000x128, .f32⟩ : BufTy).Contents (Elt Ideal)) = Spec.aggOf (m ((c.tc : Thread nD τ).loc main_arg0)) (m ((c.tc : Thread nD τ).loc main_arg1)) := by
  show StableHlo.after hostOps0 _ (Proc.devRef .tc main_v13) = _
  after_results
  rfl

/-- The in-degrees that the first layer reads. -/
theorem V1_v17 : (V1 m ρ c main_v17 : (⟨S100000x1, .f32⟩ : BufTy).Contents (Elt Ideal)) = Spec.cntOf (m ((c.tc : Thread nD τ).loc main_arg1)) := by
  show StableHlo.after hostOps0 _ (Proc.devRef .tc main_v17) = _
  after_results
  rfl

/-- The first bias as one row of 128 entries. -/
theorem V1_v18 : (V1 m ρ c main_v18 : (⟨S1x128, .f32⟩ : BufTy).Contents (Elt Ideal)) = shapeCast _ (m ((c.tc : Thread nD τ).loc main_arg4)) shapeCasts_S128_S1x128 := by
  show StableHlo.after hostOps0 _ (Proc.devRef .tc main_v18) = _
  after_results
  rfl

/-- The edges' source rows, as given. -/
theorem W1_v1 : (W1 m ρ c (Proc.devRef .tc main_v1) : (⟨S1600000, .i32⟩ : BufTy).Contents (Elt Ideal)) = Spec.srcRaw (m ((c.tc : Thread nD τ).loc main_arg1)) := by
  show StableHlo.after hostOps0 _ (Proc.devRef .tc main_v1) = _
  after_results
  rfl

/-- The edges' destination rows. -/
theorem W1_v3 : (W1 m ρ c (Proc.devRef .tc main_v3) : (⟨S1600000, .i32⟩ : BufTy).Contents (Elt Ideal)) = Spec.dstOf (m ((c.tc : Thread nD τ).loc main_arg1)) := by
  show StableHlo.after hostOps0 _ (Proc.devRef .tc main_v3) = _
  after_results
  rfl

/-! ## The arguments the stretch leaves alone -/

theorem W1_arg0 : W1 m ρ c (Proc.devRef .tc main_arg0) = (m ((c.tc : Thread nD τ).loc main_arg0)) := by
  show StableHlo.after hostOps0 _ (Proc.devRef .tc main_arg0) = _
  keeps_through hostOps0
theorem W1_arg2 : W1 m ρ c (Proc.devRef .tc main_arg2) = (m ((c.tc : Thread nD τ).loc main_arg2)) := by
  show StableHlo.after hostOps0 _ (Proc.devRef .tc main_arg2) = _
  keeps_through hostOps0
theorem W1_arg3 : W1 m ρ c (Proc.devRef .tc main_arg3) = (m ((c.tc : Thread nD τ).loc main_arg3)) := by
  show StableHlo.after hostOps0 _ (Proc.devRef .tc main_arg3) = _
  keeps_through hostOps0
theorem W1_arg5 : W1 m ρ c (Proc.devRef .tc main_arg5) = (m ((c.tc : Thread nD τ).loc main_arg5)) := by
  show StableHlo.after hostOps0 _ (Proc.devRef .tc main_arg5) = _
  keeps_through hostOps0
theorem W1_arg6 : W1 m ρ c (Proc.devRef .tc main_arg6) = (m ((c.tc : Thread nD τ).loc main_arg6)) := by
  show StableHlo.after hostOps0 _ (Proc.devRef .tc main_arg6) = _
  keeps_through hostOps0
theorem W1_arg7 : W1 m ρ c (Proc.devRef .tc main_arg7) = (m ((c.tc : Thread nD τ).loc main_arg7)) := by
  show StableHlo.after hostOps0 _ (Proc.devRef .tc main_arg7) = _
  keeps_through hostOps0
theorem W1_arg8 : W1 m ρ c (Proc.devRef .tc main_arg8) = (m ((c.tc : Thread nD τ).loc main_arg8)) := by
  show StableHlo.after hostOps0 _ (Proc.devRef .tc main_arg8) = _
  keeps_through hostOps0
theorem W1_arg9 : W1 m ρ c (Proc.devRef .tc main_arg9) = (m ((c.tc : Thread nD τ).loc main_arg9)) := by
  show StableHlo.after hostOps0 _ (Proc.devRef .tc main_arg9) = _
  keeps_through hostOps0

end Cert.KernelIdeal.RunValue

end
-- ==== Proof.KernelHost1.lean ====
/-
  The second host stretch of the kernel program, read at the buffers the later segments use.

  The stretch does for the first layer's output what the first stretch did for the features: it sums that output's
  rows over every row's in-neighbours, counts the edges into each row, and lays the second bias out as a single row.
  It reads the edges' source and destination rows from the buffers the first stretch left, so the sums and the counts
  are the specification's two opaque functions of the first layer's output and the edge list as soon as those two
  buffers still hold the edge list's two rows. The first layer's output, the second layer's two weight matrices and the
  head's weights and bias are not written.
-/
import proofs.«127703_j80607946211552_1_alg».proof.Proof.Gen.KernelIdeal.Frame
import proofs.«127703_j80607946211552_1_alg».proof.Proof.KernelSpec
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Cert.GraphConv Idealize.ShloMosaic.ValueIdx

/-- A buffer that no operation of a host stretch writes holds after the stretch what it held before. -/
local macro "keeps_through " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## What the stretch computes -/

/-- The summed neighbour rows that the second layer reads: the specification's sum over in-neighbours of the rows the
    first region left, given that the two edge-row buffers hold the rows of the edge list `a1`. -/
theorem V3_v29 (a1 : (⟨S2x1600000, .i32⟩ : BufTy).Contents (Elt Ideal))
    (h1 : (W2 m ρ c (Proc.devRef .tc main_v1) : (⟨S1600000, .i32⟩ : BufTy).Contents (Elt Ideal)) = Spec.srcRaw a1)
    (h3 : (W2 m ρ c (Proc.devRef .tc main_v3) : (⟨S1600000, .i32⟩ : BufTy).Contents (Elt Ideal)) = Spec.dstOf a1) :
    (V3 m ρ c main_v29 : (⟨S100000x128, .f32⟩ : BufTy).Contents (Elt Ideal)) = Spec.aggOf (W2 m ρ c (Proc.devRef .tc main_v19)) a1 := by
  show StableHlo.after hostOps1 _ (Proc.devRef .tc main_v29) = _
  after_results
  rw [h1, h3]
  rfl

/-- The in-degrees that the second layer reads. -/
theorem V3_v33 (a1 : (⟨S2x1600000, .i32⟩ : BufTy).Contents (Elt Ideal))
    (h3 : (W2 m ρ c (Proc.devRef .tc main_v3) : (⟨S1600000, .i32⟩ : BufTy).Contents (Elt Ideal)) = Spec.dstOf a1) :
    (V3 m ρ c main_v33 : (⟨S100000x1, .f32⟩ : BufTy).Contents (Elt Ideal)) = Spec.cntOf a1 := by
  show StableHlo.after hostOps1 _ (Proc.devRef .tc main_v33) = _
  after_results
  rw [h3]
  rfl

/-- The second bias as one row of 128 entries. -/
theorem V3_v34 : (V3 m ρ c main_v34 : (⟨S1x128, .f32⟩ : BufTy).Contents (Elt Ideal))
    = shapeCast _ (W2 m ρ c (Proc.devRef .tc main_arg7) : (⟨S128, .f32⟩ : BufTy).Contents (Elt Ideal)) shapeCasts_S128_S1x128 := by
  show StableHlo.after hostOps1 _ (Proc.devRef .tc main_v34) = _
  after_results
  rfl

/-! ## The buffers the stretch leaves alone -/

theorem W3_v19 : W3 m ρ c (Proc.devRef .tc main_v19) = W2 m ρ c (Proc.devRef .tc main_v19) := by
  show StableHlo.after hostOps1 _ (Proc.devRef .tc main_v19) = _
  keeps_through hostOps1
theorem W3_arg5 : W3 m ρ c (Proc.devRef .tc main_arg5) = W2 m ρ c (Proc.devRef .tc main_arg5) := by
  show StableHlo.after hostOps1 _ (Proc.devRef .tc main_arg5) = _
  keeps_through hostOps1
theorem W3_arg6 : W3 m ρ c (Proc.devRef .tc main_arg6) = W2 m ρ c (Proc.devRef .tc main_arg6) := by
  show StableHlo.after hostOps1 _ (Proc.devRef .tc main_arg6) = _
  keeps_through hostOps1
theorem W3_arg8 : W3 m ρ c (Proc.devRef .tc main_arg8) = W2 m ρ c (Proc.devRef .tc main_arg8) := by
  show StableHlo.after hostOps1 _ (Proc.devRef .tc main_arg8) = _
  keeps_through hostOps1
theorem W3_arg9 : W3 m ρ c (Proc.devRef .tc main_arg9) = W2 m ρ c (Proc.devRef .tc main_arg9) := by
  show StableHlo.after hostOps1 _ (Proc.devRef .tc main_arg9) = _
  keeps_through hostOps1

end Cert.KernelIdeal.RunValue

end
-- ==== Proof.KernelHost2.lean ====
/-
  The third host stretch of the kernel program, read at the buffers the last region uses.

  The stretch cuts the head's 128 × 256 weight matrix into its column ranges [0, 128) and [128, 256) as two matrices
  of their own, and lays the head's bias out as a single row. The two layers' outputs are not written.
-/
import proofs.«127703_j80607946211552_1_alg».proof.Proof.Gen.KernelIdeal.Frame
import Idealize.ShloMosaic.Lib.StableHlo.Run
import Idealize.ShloMosaic.PureOps.Ideal

set_option maxRecDepth 16384

noncomputable section

namespace Cert.KernelIdeal.RunValue

open Cert.KernelIdeal Cert.KernelIdeal.Gen
open Idealize.ShloMosaic Idealize.ShloMosaic.TcCoe Idealize.ShloMosaic.Tactic

/-- A buffer that no operation of a host stretch writes holds after the stretch what it held before. -/
local macro "keeps_through " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## What the stretch computes -/

/-- The lower column range of the head's weights. -/
theorem V5_v36 : (V5 m ρ c main_v36 : (⟨S128x128, .f32⟩ : BufTy).Contents (Elt Ideal))
    = extractStridedSlice S128x128 ![0, 0] (W4 m ρ c (Proc.devRef .tc main_arg8) : (⟨S128x256, .f32⟩ : BufTy).Contents (Elt Ideal)) slices_S128x256_S128x128_0_0 := by
  show StableHlo.after hostOps2 _ (Proc.devRef .tc main_v36) = _
  after_results

/-- The upper column range of the head's weights. -/
theorem V5_v37 : (V5 m ρ c main_v37 : (⟨S128x128, .f32⟩ : BufTy).Contents (Elt Ideal))
    = extractStridedSlice S128x128 ![0, 128] (W4 m ρ c (Proc.devRef .tc main_arg8) : (⟨S128x256, .f32⟩ : BufTy).Contents (Elt Ideal)) slices_S128x256_S128x128_0_128 := by
  show StableHlo.after hostOps2 _ (Proc.devRef .tc main_v37) = _
  after_results

/-- The head's bias as one row of 128 entries. -/
theorem V5_v38 : (V5 m ρ c main_v38 : (⟨S1x128, .f32⟩ : BufTy).Contents (Elt Ideal))
    = shapeCast _ (W4 m ρ c (Proc.devRef .tc main_arg9) : (⟨S128, .f32⟩ : BufTy).Contents (Elt Ideal)) shapeCasts_S128_S1x128 := by
  show StableHlo.after hostOps2 _ (Proc.devRef .tc main_v38) = _
  after_results
  rfl

/-! ## The buffers the stretch leaves alone -/

theorem W5_v19 : W5 m ρ c (Proc.devRef .tc main_v19) = W4 m ρ c (Proc.devRef .tc main_v19) := by
  show StableHlo.after hostOps2 _ (Proc.devRef .tc main_v19) = _
  keeps_through hostOps2
theorem W5_v35 : W5 m ρ c (Proc.devRef .tc main_v35) = W4 m ρ c (Proc.devRef .tc main_v35) := by
  show StableHlo.after hostOps2 _ (Proc.devRef .tc main_v35) = _
  keeps_through hostOps2

end Cert.KernelIdeal.RunValue

end
-- ==== Proof.KernelChain.lean ====
/-
  The kernel program's result array as a function of its ten argument arrays.

  The program is three host stretches and three kernel regions in turn. Given, for each region, its output array
  after the region as one whole-array function of the arrays the region finds — a layer of the graph convolution for
  the first two regions, the head on two cut weight matrices for the third —, the result array at the end is the
  specification's function of the arguments: the contents at each boundary are walked back to the launch. A buffer a
  region does not hold, and a buffer a region only reads, holds after the region what it held before; a buffer a host
  stretch does not write likewise; and what a host stretch does write is read off its operations. The first layer
  is fed the neighbour sums and in-degrees of the features; the second the neighbour sums and in-degrees of the first
  layer's output, over the same edge list; the head the two layers' outputs and the two column ranges of its weight
  matrix, which is the head on the whole matrix because a sum over 256 columns is the sum over the lower 128 plus the
  sum over the upper 128.
-/
import proofs.«127703_j80607946211552_1_alg».proof.Proof.KernelHost0
import proofs.«127703_j80607946211552_1_alg».proof.Proof.KernelHost1
import proofs.«127703_j80607946211552_1_alg».proof.Proof.KernelHost2
import proofs.«127703_j80607946211552_1_alg».proof.Proof.KernelSpec
import proofs.«127703_j80607946211552_1_alg».proof.Proof.LayerSpec
import Idealize.ShloMosaic.Lib.ValueLayout
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.ShloMosaic.Tactic
open Cert.GraphConv Idealize.ShloMosaic.ValueIdx

variable (m : (ℓ : Loc nD τ sig) → Buf (Elt Ideal) ℓ) (ρ : Dev nD → PrngReg) (c : Dev nD)

/-! ## The first region: the first layer -/

/-- The first bias, read column by column off its row. -/
theorem V1_bias : (fun q : Fin 128 => (V1 m ρ c main_v18 : (⟨S1x128, .f32⟩ : BufTy).Contents (Elt Ideal)) (ix2 (0 : Fin 1) q)) = Spec.biasOf (m ((c.tc : Thread nD τ).loc main_arg4)) := by
  funext q
  rw [V1_v18 m ρ c]
  exact shapeCast_a_1a_apply _ _ 0 q

/-- After the first region its output array holds the first layer of the specification. -/
theorem W2_v19 (hfin0 : ∀ (V : (c : Dev nD) → (b : Ref sig .tc) → Buf (Elt Ideal) ((c : Thread nD τ).loc b)) (c : Dev nD),
      (dat0 (F := Ideal) V c).arrAt 6 cfg0.N = fun i => layerAt (V c main_v13) (V c main_v17) (V c main_arg0) (V c main_arg2) (V c main_arg3) (fun q => V c main_v18 (ix2 (0 : Fin 1) q)) (i 0) (i 1)) :
    (W2 m ρ c (Proc.devRef .tc main_v19) : (⟨S100000x128, .f32⟩ : BufTy).Contents (Elt Ideal)) = (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W2_arr m ρ c 6).trans ((hfin0 (V1 m ρ) c).trans ?_)
  rw [V1_bias m ρ c, V1_v13 m ρ c, V1_v17 m ρ c,
    show V1 m ρ c main_arg0 = (m ((c.tc : Thread nD τ).loc main_arg0)) from W1_arg0 m ρ c,
    show V1 m ρ c main_arg2 = (m ((c.tc : Thread nD τ).loc main_arg2)) from W1_arg2 m ρ c,
    show V1 m ρ c main_arg3 = (m ((c.tc : Thread nD τ).loc main_arg3)) from W1_arg3 m ρ c]
  rfl

/-- The first region holds neither of the edge list's two rows, nor the later arguments. -/
theorem W2_v1 : (W2 m ρ c (Proc.devRef .tc main_v1) : (⟨S1600000, .i32⟩ : BufTy).Contents (Elt Ideal)) = Spec.srcRaw (m ((c.tc : Thread nD τ).loc main_arg1)) :=
  (W2_of_ne m ρ c main_v1 (by decide)).trans (W1_v1 m ρ c)
theorem W2_v3 : (W2 m ρ c (Proc.devRef .tc main_v3) : (⟨S1600000, .i32⟩ : BufTy).Contents (Elt Ideal)) = Spec.dstOf (m ((c.tc : Thread nD τ).loc main_arg1)) :=
  (W2_of_ne m ρ c main_v3 (by decide)).trans (W1_v3 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)
theorem W2_arg8 : W2 m ρ c (Proc.devRef .tc main_arg8) = (m ((c.tc : Thread nD τ).loc main_arg8)) :=
  (W2_of_ne m ρ c main_arg8 (by decide)).trans (W1_arg8 m ρ c)
theorem W2_arg9 : W2 m ρ c (Proc.devRef .tc main_arg9) = (m ((c.tc : Thread nD τ).loc main_arg9)) :=
  (W2_of_ne m ρ c main_arg9 (by decide)).trans (W1_arg9 m ρ c)

/-! ## The second region: the second layer, fed by the first -/

/-- The second bias, read column by column off its row. -/
theorem V3_bias : (fun q : Fin 128 => (V3 m ρ c main_v34 : (⟨S1x128, .f32⟩ : BufTy).Contents (Elt Ideal)) (ix2 (0 : Fin 1) q)) = Spec.biasOf (m ((c.tc : Thread nD τ).loc main_arg7)) := by
  funext q
  rw [V3_v34 m ρ c, W2_arg7 m ρ c]
  exact shapeCast_a_1a_apply _ _ 0 q

/-- The second region finds the first layer where the first region left it. -/
theorem V3_v19 (hfin0 : ∀ (V : (c : Dev nD) → (b : Ref sig .tc) → Buf (Elt Ideal) ((c : Thread nD τ).loc b)) (c : Dev nD),
      (dat0 (F := Ideal) V c).arrAt 6 cfg0.N = fun i => layerAt (V c main_v13) (V c main_v17) (V c main_arg0) (V c main_arg2) (V c main_arg3) (fun q => V c main_v18 (ix2 (0 : Fin 1) q)) (i 0) (i 1)) :
    (V3 m ρ c main_v19 : (⟨S100000x128, .f32⟩ : BufTy).Contents (Elt Ideal)) = (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (W3_v19 m ρ c).trans (W2_v19 m ρ c hfin0)

/-- After the second region its output array holds the second layer: the specification's layer on the first layer's
    output, the same edge list, and the second layer's weights and bias. -/
theorem W4_v35 (hfin0 : ∀ (V : (c : Dev nD) → (b : Ref sig .tc) → Buf (Elt Ideal) ((c : Thread nD τ).loc b)) (c : Dev nD),
      (dat0 (F := Ideal) V c).arrAt 6 cfg0.N = fun i => layerAt (V c main_v13) (V c main_v17) (V c main_arg0) (V c main_arg2) (V c main_arg3) (fun q => V c main_v18 (ix2 (0 : Fin 1) q)) (i 0) (i 1))
    (hfin1 : ∀ (V : (c : Dev nD) → (b : Ref sig .tc) → Buf (Elt Ideal) ((c : Thread nD τ).loc b)) (c : Dev nD),
      (dat1 (F := Ideal) V c).arrAt 6 cfg1.N = fun i => layerAt (V c main_v29) (V c main_v33) (V c main_v19) (V c main_arg5) (V c main_arg6) (fun q => V c main_v34 (ix2 (0 : Fin 1) q)) (i 0) (i 1)) :
    (W4 m ρ c (Proc.devRef .tc main_v35) : (⟨S100000x128, .f32⟩ : BufTy).Contents (Elt Ideal)) = (Spec.h1Of (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := by
  refine (W4_arr m ρ c 6).trans ((hfin1 (V3 m ρ) c).trans ?_)
  rw [V3_bias m ρ c, V3_v29 m ρ c (m ((c.tc : Thread nD τ).loc main_arg1)) (W2_v1 m ρ c) (W2_v3 m ρ c), V3_v33 m ρ c (m ((c.tc : Thread nD τ).loc main_arg1)) (W2_v3 m ρ c),
    W2_v19 m ρ c hfin0, V3_v19 m ρ c hfin0,
    show V3 m ρ c main_arg5 = (m ((c.tc : Thread nD τ).loc main_arg5)) from (W3_arg5 m ρ c).trans (W2_arg5 m ρ c),
    show V3 m ρ c main_arg6 = (m ((c.tc : Thread nD τ).loc main_arg6)) from (W3_arg6 m ρ c).trans (W2_arg6 m ρ c)]
  rfl

/-- The second region only reads the first layer's output. -/
theorem W4_v19 (hfin0 : ∀ (V : (c : Dev nD) → (b : Ref sig .tc) → Buf (Elt Ideal) ((c : Thread nD τ).loc b)) (c : Dev nD),
      (dat0 (F := Ideal) V c).arrAt 6 cfg0.N = fun i => layerAt (V c main_v13) (V c main_v17) (V c main_arg0) (V c main_arg2) (V c main_arg3) (fun q => V c main_v18 (ix2 (0 : Fin 1) q)) (i 0) (i 1)) :
    (W4 m ρ c (Proc.devRef .tc main_v19) : (⟨S100000x128, .f32⟩ : BufTy).Contents (Elt Ideal)) = (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (W4_arr m ρ c 2).trans ((((dat1 (V3 m ρ) c).arrAt_in 2 rfl _).trans (A_eq1 (V3 m ρ) c 2)).trans (V3_v19 m ρ c hfin0))

/-- Neither the second stretch nor the second region touches the head's weights and bias. -/
theorem W4_arg8 : W4 m ρ c (Proc.devRef .tc main_arg8) = (m ((c.tc : Thread nD τ).loc main_arg8)) :=
  (W4_of_ne m ρ c main_arg8 (by decide)).trans ((W3_arg8 m ρ c).trans (W2_arg8 m ρ c))
theorem W4_arg9 : W4 m ρ c (Proc.devRef .tc main_arg9) = (m ((c.tc : Thread nD τ).loc main_arg9)) :=
  (W4_of_ne m ρ c main_arg9 (by decide)).trans ((W3_arg9 m ρ c).trans (W2_arg9 m ρ c))

/-! ## The third region: the head -/

/-- The head's bias, read column by column off its row. -/
theorem V5_bias : (fun q : Fin 128 => (V5 m ρ c main_v38 : (⟨S1x128, .f32⟩ : BufTy).Contents (Elt Ideal)) (ix2 (0 : Fin 1) q)) = Spec.biasOf (m ((c.tc : Thread nD τ).loc main_arg9)) := by
  funext q
  rw [V5_v38 m ρ c, W4_arg9 m ρ c]
  exact shapeCast_a_1a_apply _ _ 0 q

/-- The result array at the end of the program is the specification's function of the ten arguments. -/
theorem W6_out (hfin0 : ∀ (V : (c : Dev nD) → (b : Ref sig .tc) → Buf (Elt Ideal) ((c : Thread nD τ).loc b)) (c : Dev nD),
      (dat0 (F := Ideal) V c).arrAt 6 cfg0.N = fun i => layerAt (V c main_v13) (V c main_v17) (V c main_arg0) (V c main_arg2) (V c main_arg3) (fun q => V c main_v18 (ix2 (0 : Fin 1) q)) (i 0) (i 1))
    (hfin1 : ∀ (V : (c : Dev nD) → (b : Ref sig .tc) → Buf (Elt Ideal) ((c : Thread nD τ).loc b)) (c : Dev nD),
      (dat1 (F := Ideal) V c).arrAt 6 cfg1.N = fun i => layerAt (V c main_v29) (V c main_v33) (V c main_v19) (V c main_arg5) (V c main_arg6) (fun q => V c main_v34 (ix2 (0 : Fin 1) q)) (i 0) (i 1))
    (hfin2 : ∀ (V : (c : Dev nD) → (b : Ref sig .tc) → Buf (Elt Ideal) ((c : Thread nD τ).loc b)) (c : Dev nD),
      (dat2 (F := Ideal) V c).arrAt 5 cfg2.N = fun i => headCutAt (V c main_v19) (V c main_v35) (V c main_v36) (V c main_v37) (fun q => V c main_v38 (ix2 (0 : Fin 1) q)) (i 0) (i 1)) :
    W6 m ρ c (Proc.devRef .tc main_v39)
      = Spec.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 5).trans ((hfin2 (V5 m ρ) c).trans ?_)
  rw [V5_bias m ρ c, V5_v36 m ρ c, V5_v37 m ρ c, W4_arg8 m ρ c,
    show (V5 m ρ c main_v19 : (⟨S100000x128, .f32⟩ : BufTy).Contents (Elt Ideal)) = (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) from (W5_v19 m ρ c).trans (W4_v19 m ρ c hfin0),
    show (V5 m ρ c main_v35 : (⟨S100000x128, .f32⟩ : BufTy).Contents (Elt Ideal)) = (Spec.h1Of (Spec.h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) from (W5_v35 m ρ c).trans (W4_v35 m ρ c hfin0 hfin1)]
  funext i
  exact headCutAt_eq _ _ (m ((c.tc : Thread nD τ).loc main_arg8)) _ _ _ (i 0) (i 1)

end Cert.KernelIdeal.RunValue

end
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.RefLayers.lean ====
/-
  The reference program's three dense stages, entry by entry, are the specification's layer and head.

  Read at row p and column q, the first layer's output is a positive part of a sum of three terms: the product of the
  neighbour means with the transposed first weight matrix, the product of the features with the transposed second
  weight matrix, and the bias spread along the rows. A product with a transposed matrix, read at (p, q), is the sum
  over j of the left factor at (p, j) times the untransposed matrix at (q, j); the neighbour mean at (p, j) is the
  neighbour sum at (p, j) divided by the larger of the in-degree at (p, 0) and one. That is `layerAt` of the neighbour
  sums, the in-degrees and the features. The second layer is the same expression over the first layer's output.

  The head multiplies the two outputs laid side by side, 256 columns, by the transposed 128 × 256 weight matrix: the
  sum over the 256 joined columns splits into the lower and the upper 128 (`sum_halves`); a joined column below 128
  reads the first layer's output, one from 128 on reads the second layer's at the column less 128. That is `headAt`.

  The neighbour sums and the in-degrees are never opened here: they stay the terms the reference computes them by.
-/
import proofs.«127703_j80607946211552_1_alg».proof.Proof.Gen.ReferenceIdeal.Read
import proofs.«127703_j80607946211552_1_alg».proof.Proof.LayerSpec
import proofs.«127703_j80607946211552_1_alg».proof.Proof.LibColumnsConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.GraphConv

/-- Two rank-2 indices with the same two coordinates are the same index. -/
theorem fin2_ext {n0 n1 : Nat} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

/-- The first layer's output at (p, q) is the layer of the neighbour sums, the in-degrees and the features. -/
theorem ref_layer1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (p : Fin 100000) (q : Fin 128) :
    val_main_v30 (F := Ideal) x0 x1 x2 x3 x4 (ix2 p q)
      = layerAt (val_main_v13 (F := Ideal) x0 x1) (val_main_v17 (F := Ideal) x1) x0 x2 x3 (fun q => x4 (ix1 q)) p q := by
  rw [val_main_v30_apply, val_main_v29_apply, val_main_v26_apply, val_main_v23_apply, val_main_v25_apply,
    val_main_v28_apply, val_main_v27_apply, val_main_call0_v0_apply, val_main_call0_cst_apply]
  unfold layerAt
  have hA : ∀ k : Fin 128, val_main_v21 (F := Ideal) x0 x1 (lidx_main_v23 (ix2 p q) k) * val_main_v22 (F := Ideal) x2 (ridx_main_v23 (ix2 p q) k)
      = Ideal.div (val_main_v13 (F := Ideal) x0 x1 (ix2 p k)) (max (val_main_v17 (F := Ideal) x1 (ix2 p (0 : Fin 1))) (Ideal.ofBits .f32 0x3F800000#32)) * x2 (ix2 q k) := fun k => by
    rw [val_main_v21_apply, val_main_v22_apply, val_main_v20_apply, val_main_v19_apply, val_main_v18_apply, val_main_cst_3_apply]
    have e1 : lidx_main_v23 (ix2 p q) k = ix2 p k := fin2_ext rfl rfl
    have e2 : idx_main_v22 (ridx_main_v23 (ix2 p q) k) = ix2 q k := fin2_ext rfl rfl
    have e3 : idx_main_v20 (ix2 p k) = ix2 p (0 : Fin 1) := fin2_ext rfl rfl
    rw [e1, e2, e3]
    rfl
  have hB : ∀ k : Fin 128, x0 (lidx_main_v25 (ix2 p q) k) * val_main_v24 (F := Ideal) x3 (ridx_main_v25 (ix2 p q) k)
      = x0 (ix2 p k) * x3 (ix2 q k) := fun k => by
    rw [val_main_v24_apply]
    have e1 : lidx_main_v25 (ix2 p q) k = ix2 p k := fin2_ext rfl rfl
    have e2 : idx_main_v24 (ridx_main_v25 (ix2 p q) k) = ix2 q k := fin2_ext rfl rfl
    rw [e1, e2]
  have hb : idx_main_v27 (idx_main_v28 (ix2 p q)) = ix1 q := funext fun a => Fin.ext (by match a with | ⟨0, _⟩ => rfl)
  rw [Finset.sum_congr rfl (fun k _ => hA k), Finset.sum_congr rfl (fun k _ => hB k), hb]
  rfl

/-- The second layer's output at (p, q) is the same layer over the first layer's output. -/
theorem ref_layer2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (p : Fin 100000) (q : Fin 128) :
    val_main_v57 (F := Ideal) x0 x1 x2 x3 x4 x5 x6 x7 (ix2 p q)
      = layerAt (val_main_v40 (F := Ideal) x0 x1 x2 x3 x4) (val_main_v44 (F := Ideal) x1) (val_main_v30 (F := Ideal) x0 x1 x2 x3 x4)
          x5 x6 (fun q => x7 (ix1 q)) p q := by
  rw [val_main_v57_apply, val_main_v56_apply, val_main_v53_apply, val_main_v50_apply, val_main_v52_apply,
    val_main_v55_apply, val_main_v54_apply, val_main_call1_v0_apply, val_main_call1_cst_apply]
  unfold layerAt
  have hA : ∀ k : Fin 128, val_main_v48 (F := Ideal) x0 x1 x2 x3 x4 (lidx_main_v50 (ix2 p q) k) * val_main_v49 (F := Ideal) x5 (ridx_main_v50 (ix2 p q) k)
      = Ideal.div (val_main_v40 (F := Ideal) x0 x1 x2 x3 x4 (ix2 p k)) (max (val_main_v44 (F := Ideal) x1 (ix2 p (0 : Fin 1))) (Ideal.ofBits .f32 0x3F800000#32)) * x5 (ix2 q k) := fun k => by
    rw [val_main_v48_apply, val_main_v49_apply, val_main_v47_apply, val_main_v46_apply, val_main_v45_apply, val_main_cst_9_apply]
    have e1 : lidx_main_v50 (ix2 p q) k = ix2 p k := fin2_ext rfl rfl
    have e2 : idx_main_v49 (ridx_main_v50 (ix2 p q) k) = ix2 q k := fin2_ext rfl rfl
    have e3 : idx_main_v47 (ix2 p k) = ix2 p (0 : Fin 1) := fin2_ext rfl rfl
    rw [e1, e2, e3]
    rfl
  have hB : ∀ k : Fin 128, val_main_v30 (F := Ideal) x0 x1 x2 x3 x4 (lidx_main_v52 (ix2 p q) k) * val_main_v51 (F := Ideal) x6 (ridx_main_v52 (ix2 p q) k)
      = val_main_v30 (F := Ideal) x0 x1 x2 x3 x4 (ix2 p k) * x6 (ix2 q k) := fun k => by
    rw [val_main_v51_apply]
    have e1 : lidx_main_v52 (ix2 p q) k = ix2 p k := fin2_ext rfl rfl
    have e2 : idx_main_v51 (ridx_main_v52 (ix2 p q) k) = ix2 q k := fin2_ext rfl rfl
    rw [e1, e2]
  have hb : idx_main_v54 (idx_main_v55 (ix2 p q)) = ix1 q := funext fun a => Fin.ext (by match a with | ⟨0, _⟩ => rfl)
  rw [Finset.sum_congr rfl (fun k _ => hA k), Finset.sum_congr rfl (fun k _ => hB k), hb]
  rfl

/-- The result at (p, q) is the head on the two layers' outputs. -/
theorem ref_head (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x256, .f32⟩ : BufTy).Contents (Elt Ideal)) (x9 : (⟨S128, .f32⟩ : BufTy).Contents (Elt Ideal))
    (p : Fin 100000) (q : Fin 128) :
    val_main_v64 (F := Ideal) x0 x1 x2 x3 x4 x5 x6 x7 x8 x9 (ix2 p q)
      = headAt (val_main_v30 (F := Ideal) x0 x1 x2 x3 x4) (val_main_v57 (F := Ideal) x0 x1 x2 x3 x4 x5 x6 x7) x8 (fun q => x9 (ix1 q)) p q := by
  rw [val_main_v64_apply, val_main_v63_apply, val_main_v60_apply, val_main_v62_apply, val_main_v61_apply,
    val_main_call2_v0_apply, val_main_call2_cst_apply, sum_halves]
  unfold headAt
  have hL : ∀ j : Fin 128, val_main_v58 (F := Ideal) x0 x1 x2 x3 x4 x5 x6 x7 (lidx_main_v60 (ix2 p q) (lo j)) * val_main_v59 (F := Ideal) x8 (ridx_main_v60 (ix2 p q) (lo j))
      = val_main_v30 (F := Ideal) x0 x1 x2 x3 x4 (ix2 p j) * x8 (ix2 q (lo j)) := fun j => by
    rw [val_main_v59_apply]
    have e1 : lidx_main_v60 (ix2 p q) (lo j) = ix2 p (lo j) := fin2_ext rfl rfl
    have e2 : idx_main_v59 (ridx_main_v60 (ix2 p q) (lo j)) = ix2 q (lo j) := fin2_ext rfl rfl
    rw [e1, e2]
    have hc : val_main_v58 (F := Ideal) x0 x1 x2 x3 x4 x5 x6 x7 (ix2 p (lo j)) = val_main_v30 (F := Ideal) x0 x1 x2 x3 x4 (ix2 p j) :=
      concatenate_cols_left (val_main_v30 (F := Ideal) x0 x1 x2 x3 x4) (val_main_v57 (F := Ideal) x0 x1 x2 x3 x4 x5 x6 x7)
        concatenates_S100000x128_S100000x128_S100000x256_d1 p (lo j) j.isLt
    rw [hc]
  have hR : ∀ j : Fin 128, val_main_v58 (F := Ideal) x0 x1 x2 x3 x4 x5 x6 x7 (lidx_main_v60 (ix2 p q) (hi j)) * val_main_v59 (F := Ideal) x8 (ridx_main_v60 (ix2 p q) (hi j))
      = val_main_v57 (F := Ideal) x0 x1 x2 x3 x4 x5 x6 x7 (ix2 p j) * x8 (ix2 q (hi j)) := fun j => by
    rw [val_main_v59_apply]
    have e1 : lidx_main_v60 (ix2 p q) (hi j) = ix2 p (hi j) := fin2_ext rfl rfl
    have e2 : idx_main_v59 (ridx_main_v60 (ix2 p q) (hi j)) = ix2 q (hi j) := fin2_ext rfl rfl
    rw [e1, e2]
    have h1 : 128 ≤ (hi j).val := by show 128 ≤ 128 + j.val; omega
    have h2 : (hi j).val - 128 < 128 := by have := j.isLt; show 128 + j.val - 128 < 128; omega
    have ej : (⟨(hi j).val - 128, h2⟩ : Fin 128) = j := Fin.ext (by show 128 + j.val - 128 = j.val; omega)
    have hc : val_main_v58 (F := Ideal) x0 x1 x2 x3 x4 x5 x6 x7 (ix2 p (hi j)) = val_main_v57 (F := Ideal) x0 x1 x2 x3 x4 x5 x6 x7 (ix2 p j) :=
      (concatenate_cols_right (val_main_v30 (F := Ideal) x0 x1 x2 x3 x4) (val_main_v57 (F := Ideal) x0 x1 x2 x3 x4 x5 x6 x7)
        concatenates_S100000x128_S100000x128_S100000x256_d1 p (hi j) h1 h2).trans (by rw [ej])
    rw [hc]
  have hb : idx_main_v61 (idx_main_v62 (ix2 p q)) = ix1 q := funext fun a => Fin.ext (by match a with | ⟨0, _⟩ => rfl)
  rw [Finset.sum_congr rfl (fun j _ => hL j), Finset.sum_congr rfl (fun j _ => hR j), hb]
  rfl

end Cert.ReferenceIdeal.RefValue

end
-- ==== Proof.Bridge.lean ====
/-
  The kernel program's result, as the specification states it, is the reference program's result.

  Both programs prepare the irregular part the same way: from the edge list they take the source and destination rows,
  count a negative source back from the last row, gather the source rows, and add them into the destination rows; and
  they add a one into the destination row of every edge. Written out, the two programs' terms for the neighbour sums
  and for the in-degrees are the same operations on the same arguments, so they are equal as they stand, never
  evaluated. On top of these shared arrays each layer of the reference is the specification's `layerAt` and its last
  stage the specification's `headAt` (entry by entry), which is how the kernel program's result is stated.
-/
import proofs.«127703_j80607946211552_1_alg».proof.Proof.RefLayers
import proofs.«127703_j80607946211552_1_alg».proof.Proof.KernelSpec

noncomputable section

namespace Cert.Bridge

open Cert.ReferenceIdeal Cert.ReferenceIdeal.Read Cert.ReferenceIdeal.RefValue Idealize.ShloMosaic Idealize.ShloMosaic.ValueIdx Cert.GraphConv

/-- The first layer's neighbour sums: both programs gather the source rows and add them into the destination rows
    with the same operations. -/
theorem agg1_eq (x0 : (⟨S100000x128, .f32⟩ : BufTy).Contents (Elt Ideal)) (x1 : (⟨S2x1600000, .i32⟩ : BufTy).Contents (Elt Ideal)) :
    val_main_v13 (F := Ideal) x0 x1 = Cert.KernelIdeal.Spec.aggOf x0 x1 := by
  unfold val_main_v13 val_main_v12 val_main_v11 val_main_cst val_main_v10 val_main_v9 val_main_v8 val_main_v7 val_main_v6
    val_main_c_0 val_main_v5 val_main_v4 val_main_c val_main_v3 val_main_v2 val_main_v1 val_main_v0
  unfold Cert.KernelIdeal.Spec.aggOf Cert.KernelIdeal.Spec.dstOf Cert.KernelIdeal.Spec.srcOf Cert.KernelIdeal.Spec.srcRaw
  rfl

/-- The first layer's in-degrees: a one added into the destination row of every edge, in both programs. -/
theorem cnt1_eq (x1 : (⟨S2x1600000, .i32⟩ : BufTy).Contents (Elt Ideal)) :
    val_main_v17 (F := Ideal) x1 = Cert.KernelIdeal.Spec.cntOf x1 := by
  unfold val_main_v17 val_main_v16 val_main_v15 val_main_cst_2 val_main_v14 val_main_cst_1 val_main_v3 val_main_v2
  unfold Cert.KernelIdeal.Spec.cntOf Cert.KernelIdeal.Spec.dstOf
  rfl

/-- The second layer's neighbour sums: the same operations on the first layer's output, which is not opened. -/
theorem agg2_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v40 (F := Ideal) x0 x1 x2 x3 x4 = Cert.KernelIdeal.Spec.aggOf (val_main_v30 (F := Ideal) x0 x1 x2 x3 x4) x1 := by
  unfold val_main_v40 val_main_v39 val_main_v38 val_main_cst_6 val_main_v37 val_main_v36 val_main_v35 val_main_v34 val_main_v33
    val_main_c_5 val_main_v32 val_main_v31 val_main_c_4 val_main_v3 val_main_v2 val_main_v1 val_main_v0
  unfold Cert.KernelIdeal.Spec.aggOf Cert.KernelIdeal.Spec.dstOf Cert.KernelIdeal.Spec.srcOf Cert.KernelIdeal.Spec.srcRaw
  generalize val_main_v30 (F := Ideal) x0 x1 x2 x3 x4 = h
  rfl

/-- The second layer's in-degrees are the first layer's: the edges are the same. -/
theorem cnt2_eq (x1 : (⟨S2x1600000, .i32⟩ : BufTy).Contents (Elt Ideal)) :
    val_main_v44 (F := Ideal) x1 = Cert.KernelIdeal.Spec.cntOf x1 := by
  unfold val_main_v44 val_main_v43 val_main_v42 val_main_cst_8 val_main_v41 val_main_cst_7 val_main_v3 val_main_v2
  unfold Cert.KernelIdeal.Spec.cntOf Cert.KernelIdeal.Spec.dstOf
  rfl

/-- The first layer: the specification's layer on the shared neighbour sums and in-degrees is the reference's. -/
theorem h1_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    Cert.KernelIdeal.Spec.h1Of x0 x1 x2 x3 x4 = val_main_v30 (F := Ideal) x0 x1 x2 x3 x4 := by
  funext i
  obtain ⟨p, q, rfl⟩ : ∃ (p : Fin 100000) (q : Fin 128), i = ix2 p q := ⟨i 0, i 1, eq_ix2 i⟩
  rw [ref_layer1, agg1_eq, cnt1_eq]
  rfl

/-- The second layer: the same layer, fed by the first layer's output. -/
theorem h2_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    Cert.KernelIdeal.Spec.h1Of (Cert.KernelIdeal.Spec.h1Of x0 x1 x2 x3 x4) x1 x5 x6 x7
      = val_main_v57 (F := Ideal) x0 x1 x2 x3 x4 x5 x6 x7 := by
  rw [h1_eq x0 x1 x2 x3 x4]
  funext i
  obtain ⟨p, q, rfl⟩ : ∃ (p : Fin 100000) (q : Fin 128), i = ix2 p q := ⟨i 0, i 1, eq_ix2 i⟩
  rw [ref_layer2, agg2_eq, cnt2_eq]
  rfl

/-- The two programs' results are the same array: the head on the two layers' outputs. -/
theorem out_eq_ref (x0 : (⟨Cert.ReferenceIdeal.S100000x128, .f32⟩ : BufTy).Contents (Elt Ideal))
    (x1 : (⟨Cert.ReferenceIdeal.S2x1600000, .i32⟩ : BufTy).Contents (Elt Ideal))
    (x2 x3 : (⟨Cert.ReferenceIdeal.S128x128, .f32⟩ : BufTy).Contents (Elt Ideal))
    (x4 : (⟨Cert.ReferenceIdeal.S128, .f32⟩ : BufTy).Contents (Elt Ideal))
    (x5 x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S128x256, .f32⟩ : BufTy).Contents (Elt Ideal))
    (x9 : (⟨Cert.ReferenceIdeal.S128, .f32⟩ : BufTy).Contents (Elt Ideal)) :
    Cert.KernelIdeal.Spec.outOf x0 x1 x2 x3 x4 x5 x6 x7 x8 x9
      = Cert.ReferenceIdeal.Read.val_main_v64 (F := Ideal) x0 x1 x2 x3 x4 x5 x6 x7 x8 x9 := by
  funext i
  obtain ⟨p, q, rfl⟩ : ∃ (p : Fin 100000) (q : Fin 128), i = ix2 p q := ⟨i 0, i 1, eq_ix2 i⟩
  unfold Cert.KernelIdeal.Spec.outOf
  rw [h2_eq x0 x1 x2 x3 x4 x5 x6 x7, h1_eq x0 x1 x2 x3 x4, ref_head]
  rfl

end Cert.Bridge

end
-- ==== Proof.lean ====
/-
  Two layers of a mean-aggregating graph convolution and a linear head, as three tiled kernels between host gathers
  and scatters, against the same network written with plain array operations: both end, on the extended reals, with
  the same array.

  Write agg(f) for the array whose row d is the sum of the rows f[s] over the edges (s, d), and cnt for the in-degrees;
  both programs compute them on the host with the same gather and accumulating scatters, and this proof never opens
  them. A layer is  L(f)[p, q] = max(Σ_j (agg(f)[p, j] / max(cnt[p], 1)) · Wl[q, j] + Σ_j f[p, j] · Wr[q, j] + b[q], 0),
  the network is  h1 = L1(x), h2 = L2(h1), out[p, q] = max(Σ_k [h1 | h2][p, k] · Wlin[q, k] + blin[q], 0).
  The kernel program computes each layer block by block over 5000 rows at a time — a row of a layer depends on that row
  of its operands only, so the blocks are restrictions of one whole-array function and the 20 blocks fill the array —
  and computes the head as h1 · Wlin[:, :128]ᵀ + h2 · Wlin[:, 128:]ᵀ. The reference multiplies the joined rows
  [h1 | h2] by Wlinᵀ. The one law that joins the two is that a sum over the 256 joined columns is the sum over the first
  128 plus the sum over the last 128: commutativity and associativity of addition, which hold on all of the extended
  reals, so the precondition (finite inputs) is never opened. Roundings to a narrower float format are the identity on
  the extended reals, and the kernel's matrix unit and the host's dot product are the same finite sum there.

  The pieces: the specification (LayerSpec), what the kernel program computes as one function (KernelSpec), each
  kernel body's stored block at an entry (KernelPayloads), blocks to arrays per region (KernelBlocks0/1/2), the kernel
  program's run with its result array named (KernelRun), that array walked back through the host stretches and regions to
  the arguments (KernelChain), the reference's stages read as the same layer and head functions (RefLayers), and the two
  functions of the arguments equal (Bridge).
-/
import proofs.«127703_j80607946211552_1_alg».proof.Defs
import proofs.«127703_j80607946211552_1_alg».proof.Proof.Gen.Kernel
import proofs.«127703_j80607946211552_1_alg».proof.Proof.Gen.Kernel.Skeleton
import proofs.«127703_j80607946211552_1_alg».proof.Proof.Gen.Kernel.Launch
import proofs.«127703_j80607946211552_1_alg».proof.Proof.Gen.Kernel.Points
import proofs.«127703_j80607946211552_1_alg».proof.Proof.Gen.Kernel.Frame
import proofs.«127703_j80607946211552_1_alg».proof.Proof.Gen.KernelIdeal
import proofs.«127703_j80607946211552_1_alg».proof.Proof.Gen.KernelIdeal.Skeleton
import proofs.«127703_j80607946211552_1_alg».proof.Proof.Gen.KernelIdeal.Launch
import proofs.«127703_j80607946211552_1_alg».proof.Proof.Gen.KernelIdeal.Points
import proofs.«127703_j80607946211552_1_alg».proof.Proof.Gen.KernelIdeal.Frame
import proofs.«127703_j80607946211552_1_alg».proof.Proof.Gen.ReferenceIdeal
import proofs.«127703_j80607946211552_1_alg».proof.Proof.Gen.Pre_finite_inputs
import proofs.«127703_j80607946211552_1_alg».proof.Proof.Gen.ReferenceIdeal.Run
import proofs.«127703_j80607946211552_1_alg».proof.Proof.Gen.ReferenceIdeal.Read
import proofs.«127703_j80607946211552_1_alg».proof.Proof.KernelBlocks0
import proofs.«127703_j80607946211552_1_alg».proof.Proof.KernelBlocks1
import proofs.«127703_j80607946211552_1_alg».proof.Proof.KernelBlocks2
import proofs.«127703_j80607946211552_1_alg».proof.Proof.KernelRun
import proofs.«127703_j80607946211552_1_alg».proof.Proof.KernelChain
import proofs.«127703_j80607946211552_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network's output as the kernel program computes it (KernelSpec's `outOf`) of the
    arguments: the kernel program by its run and the walk back through its segments, the reference because its last
    stage is the same function of the arguments. -/
theorem algebraic : Cert.algebraic_KernelIdeal_ReferenceIdeal := by
  intro m ρ m' ρ' _ hagree
  refine ⟨fun c => Cert.KernelIdeal.Spec.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.RunValue.W6_out m ρ c
        (fun V c => Cert.KernelIdeal.Blocks0.final V c) (fun V c => Cert.KernelIdeal.Blocks1.final V c)
        (fun V c => Cert.KernelIdeal.Blocks2.final V c)), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.out_eq_ref _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
